-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x64 : Shape := ⟨2, ![8192, 64]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S256 .f32) (main_arg8 : FVec F S256x64 .f32) (main_arg9 : FVec F S64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S256x64 .f32) (main_arg5 : FVec F S64 .f32) (main_arg6 : FVec F S256x256 .f32) (main_arg7 : FVec F S256 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x256 .f32) (main_arg1 : FVec F S8192x64 .f32) (main_arg2 : FVec F S256x256 .f32) (main_arg3 : FVec F S256 .f32) (main_arg4 : FVec F S256x64 .f32) (main_arg5 : FVec F S64 .f32) (main_arg6 : FVec F S256x256 .f32) (main_arg7 : FVec F S256 .f32) (main_arg8 : FVec F S256x64 .f32) (main_arg9 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8192x256 : Shape := ⟨2, ![8192, 256]⟩
abbrev S8192x64 : Shape := ⟨2, ![8192, 64]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩
abbrev S1x64 : Shape := ⟨2, ![1, 64]⟩
abbrev S256x512 : Shape := ⟨2, ![256, 512]⟩
abbrev S512 : Shape := ⟨1, ![512]⟩
abbrev S1x512 : Shape := ⟨2, ![1, 512]⟩
abbrev S4x8x128 : Shape := ⟨3, ![4, 8, 128]⟩
abbrev S2048x256 : Shape := ⟨2, ![2048, 256]⟩
abbrev S2048x64 : Shape := ⟨2, ![2048, 64]⟩
abbrev S1x8x128 : Shape := ⟨3, ![1, 8, 128]⟩
abbrev S2048x512 : Shape := ⟨2, ![2048, 512]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 36
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x64, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S8192x64, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S256x512, .f32⟩
  | .hbm, ⟨24, _⟩ => ⟨S256x512, .bf16⟩
  | .hbm, ⟨25, _⟩ => ⟨S512, .f32⟩
  | .hbm, ⟨26, _⟩ => ⟨S1x512, .f32⟩
  | .hbm, ⟨27, _⟩ => ⟨S256x64, .bf16⟩
  | .hbm, ⟨28, _⟩ => ⟨S256x64, .bf16⟩
  | .hbm, ⟨29, _⟩ => ⟨S1x64, .f32⟩
  | .hbm, ⟨30, _⟩ => ⟨S1x64, .f32⟩
  | .hbm, ⟨31, _⟩ => ⟨S4x8x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x64, .f32⟩
  | .local _ .vmem, ⟨3, _⟩ => ⟨S2048x64, .f32⟩
  | .local _ .vmem, ⟨4, _⟩ => ⟨S256x512, .bf16⟩
  | .local _ .vmem, ⟨5, _⟩ => ⟨S1x512, .f32⟩
  | .local _ .vmem, ⟨6, _⟩ => ⟨S256x64, .bf16⟩
  | .local _ .vmem, ⟨7, _⟩ => ⟨S1x64, .f32⟩
  | .local _ .vmem, ⟨8, _⟩ => ⟨S256x64, .bf16⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x8x128, .f32⟩
  | .local _ .vmem, ⟨13, _⟩ => ⟨S1x8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  reducesTo_S8192x64_S64_d0 : S8192x64.ReducesTo [0] S64
  h_S_ : 0 < S_.numel
  bcast_S_S64 : S_.BroadcastsInDim S64 (![] : Fin 0 → Fin S64.rank)
  shapeCasts_S64_S1x64 : S64.ShapeCasts S1x64
  concatenates_S256x256_S256x256_S256x512_d1 : Shape.Concatenates [S256x256, S256x256] S256x512 1
  bitsLt_bf16_f32 : FTy.bits .bf16 < FTy.bits .f32
  concatenates_S256_S256_S512_d0 : Shape.Concatenates [S256, S256] S512 0
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S4x8x128_S_d0_1_2 : S4x8x128.ReducesTo [0, 1, 2] S_
  dot_S2048x256_S256x512_S2048x512_1_0_0_1_n_n_wf : DotDims.WF S2048x256 S256x512 S2048x512 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x128.size a ≤ S4x8x128.size a
  hwx0_10 : ∀ i : grid0.Coords, EltTy.bits .f32 = 32 ∨ (Rect.block (s := S4x8x128) S1x8x128.size (cc0_transform_10 i) (hinb0_10 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x64 : Shape := ⟨2, ![8192, 64]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S_ : Shape := ⟨0, ![]⟩
abbrev S1x64 : Shape := ⟨2, ![1, 64]⟩
abbrev S8192 : Shape := ⟨1, ![8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x64, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S_, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S8192x64, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S_, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  reducesTo_S8192x64_S8192_d1 : S8192x64.ReducesTo [1] S8192
  reducesTo_S8192_S_d0 : S8192.ReducesTo [0] S_
  dot_S8192x256_S256x256_S8192x256_1_0_0_1_n_n_wf : DotDims.WF S8192x256 S256x256 S8192x256 [1] [0] [0] [1] [] []
  dot_S8192x256_S256x64_S8192x64_1_0_0_1_n_n_wf : DotDims.WF S8192x256 S256x64 S8192x64 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

class Facts : Prop extends Facts₀ where

variable [Facts]
-- ==== Proof.Spec.lean ====
/-
  The mathematics of the two programs, written once over the extended reals.

  The inputs are a batch of 8192 rows x (256 features each) with targets y (64 each), and two two-layer
  heads with 256 hidden units: the mean head (weights mw1, mb1, mw2, mb2) and the log-variance head
  (lw1, lb1, lw2, lb2). For row n and output d

    mu(n,d)  = sum_j relu(sum_k x(n,k) w1(k,j) + b1(j)) w2(j,d) + b2(d)      (mean head)
    lv(n,d)  = the same with the log-variance head's weights
    e(n,d)   = exp(-tanh(lv(n,d)))                                            (inverse variance)
    pos(n,d) = -(mu - y(n,d))^2 e / 2
    neg(n,d) = -(mu^2 - 2 mu ybar(d) + y2bar(d)) e / 2

  with ybar(d) and y2bar(d) the means over the batch of y(n,d) and of y(n,d)^2. The reference returns the
  mean over n of  sum_d pos(n,d) - sum_d neg(n,d).  The kernel cuts the batch into four tiles of 2048 rows;
  tile i yields  T(i) = sum_{r<2048} sum_d (pos - neg)(2048 i + r, d),  written scaled by 2^-10 into each of
  the 8 x 128 entries of its output block; the host then adds all 4 x 8 x 128 entries and divides by 8192.
  Because 8 x 128 x 2^-10 = 1 and a finite sum of differences of REALS is the difference of the sums, the two
  results agree when every input is a real number. This module only states the functions; every float
  literal stays the word the programs print.
-/
import Idealize.ShloMosaic.PureOps.Ideal
import Idealize.ShloMosaic.Lib.ValueIdx

noncomputable section

open scoped BigOperators

namespace Cert.Spec

open Idealize.ShloMosaic Idealize.ShloMosaic.ValueIdx

/-- A matrix and a vector of extended reals over literal extents. -/
abbrev Mat (a b : ℕ) : Type := (⟨2, ![a, b]⟩ : Shape).Idx → EReal
abbrev Vct (a : ℕ) : Type := (⟨1, ![a]⟩ : Shape).Idx → EReal

/-- The four float words both programs print: 8192, 1/2, 2 and 2^-10. -/
abbrev cN : EReal := Ideal.ofBits .f32 0x46000000#32
abbrev cHalf : EReal := Ideal.ofBits .f32 0x3F000000#32
abbrev cTwo : EReal := Ideal.ofBits .f32 0x40000000#32
abbrev cScale : EReal := Ideal.ofBits .f32 0x3A800000#32

/-! ## One row -/

/-- One hidden unit: the row's product with a weight column, plus the bias, clipped below at 0. -/
def hiddenAt (xrow wcol : Fin 256 → EReal) (b : EReal) : EReal :=
  max ((∑ k : Fin 256, xrow k * wcol k) + b) 0

/-- One output of a two-layer head: the hidden units' product with a second-layer column, plus its bias. -/
def headAt (xrow : Fin 256 → EReal) (w1 : Fin 256 → Fin 256 → EReal) (b1 : Fin 256 → EReal)
    (w2col : Fin 256 → EReal) (b2 : EReal) : EReal :=
  (∑ j : Fin 256, hiddenAt xrow (fun k => w1 k j) (b1 j) * w2col j) + b2

/-- The inverse variance exp(-tanh(lv)). -/
def invVarAt (lv : EReal) : EReal := Ideal.exp (-(Ideal.tanh lv))

/-- -(mu - y)^2 e / 2. -/
def posTerm (mu e yv : EReal) : EReal := -((mu - yv) * (mu - yv)) * e * cHalf

/-- -(mu^2 - 2 mu ybar + y2bar) e / 2. -/
def negTerm (mu e yb y2b : EReal) : EReal := -(mu * mu - cTwo * mu * yb + y2b) * e * cHalf

/-! ## The whole arrays -/

/-- The ten argument arrays. -/
structure Args where
  x : Mat 8192 256
  y : Mat 8192 64
  mw1 : Mat 256 256
  mb1 : Vct 256
  mw2 : Mat 256 64
  mb2 : Vct 64
  lw1 : Mat 256 256
  lb1 : Vct 256
  lw2 : Mat 256 64
  lb2 : Vct 64

/-- Every entry of an array is a real number. -/
def IsReal {s : Shape} (v : s.Idx → EReal) : Prop := ∀ i, ∃ r : ℝ, v i = (r : EReal)

/-- Every entry of every argument is a real number. -/
structure Args.Real (A : Args) : Prop where
  x : IsReal A.x
  y : IsReal A.y
  mw1 : IsReal A.mw1
  mb1 : IsReal A.mb1
  mw2 : IsReal A.mw2
  mb2 : IsReal A.mb2
  lw1 : IsReal A.lw1
  lb1 : IsReal A.lb1
  lw2 : IsReal A.lw2
  lb2 : IsReal A.lb2

/-- The batch mean of y(., d) and of its square. -/
def yMean (y : Mat 8192 64) (d : Fin 64) : EReal := Ideal.div (∑ n : Fin 8192, y (ix2 n d)) cN
def ySqMean (y : Mat 8192 64) (d : Fin 64) : EReal := Ideal.div (∑ n : Fin 8192, y (ix2 n d) * y (ix2 n d)) cN

/-- The mean head and the log-variance head at row n, output d. -/
def Args.mu (A : Args) (n : Fin 8192) (d : Fin 64) : EReal :=
  headAt (fun k => A.x (ix2 n k)) (fun k j => A.mw1 (ix2 k j)) (fun j => A.mb1 (ix1 j)) (fun j => A.mw2 (ix2 j d)) (A.mb2 (ix1 d))
def Args.lv (A : Args) (n : Fin 8192) (d : Fin 64) : EReal :=
  headAt (fun k => A.x (ix2 n k)) (fun k j => A.lw1 (ix2 k j)) (fun j => A.lb1 (ix1 j)) (fun j => A.lw2 (ix2 j d)) (A.lb2 (ix1 d))

def Args.pos (A : Args) (n : Fin 8192) (d : Fin 64) : EReal :=
  posTerm (A.mu n d) (invVarAt (A.lv n d)) (A.y (ix2 n d))
def Args.neg (A : Args) (n : Fin 8192) (d : Fin 64) : EReal :=
  negTerm (A.mu n d) (invVarAt (A.lv n d)) (yMean A.y d) (ySqMean A.y d)

/-- The reference's result: the mean over the rows of  sum_d pos - sum_d neg. -/
def refResult (A : Args) : EReal :=
  Ideal.div (∑ n : Fin 8192, ((∑ d : Fin 64, A.pos n d) - ∑ d : Fin 64, A.neg n d)) cN

/-- Row r of tile i is row 2048 i + r of the batch. -/
def row (i : Fin 4) (r : Fin 2048) : Fin 8192 := ⟨i.val * 2048 + r.val, by omega⟩

/-- What tile i writes to every entry of its output block. -/
def tile (A : Args) (i : Fin 4) : EReal :=
  (∑ r : Fin 2048, ∑ d : Fin 64, (A.pos (row i r) d - A.neg (row i r) d)) * cScale

/-- The kernel's array of partial results, [4, 8, 128]. -/
def partials (A : Args) : (⟨3, ![4, 8, 128]⟩ : Shape).Idx → EReal := fun j => tile A (j 0)

/-- The kernel's result: all partial results added, divided by 8192. -/
def kerResult (A : Args) : EReal :=
  Ideal.div (∑ j : (⟨3, ![4, 8, 128]⟩ : Shape).Idx, partials A j) cN

/-! ## One tile, from the blocks the kernel body is handed -/

/-- Column j of the mean head and of the log-variance head in the two first layers laid side by side. -/
def lo (j : Fin 256) : Fin 512 := ⟨j.val, by omega⟩
def hi (j : Fin 256) : Fin 512 := ⟨256 + j.val, by omega⟩

/-- The two heads at row r of a block: x0 the rows, x2 | x3 the joined first layers and biases, x4 x5 and x6 x7
    the second layers and biases. -/
def blockMu (x0 : Mat 2048 256) (x2 : Mat 256 512) (x3 : Mat 1 512) (x4 : Mat 256 64) (x5 : Mat 1 64)
    (r : Fin 2048) (d : Fin 64) : EReal :=
  headAt (fun k => x0 (ix2 r k)) (fun k j => x2 (ix2 k (lo j))) (fun j => x3 (ix2 0 (lo j))) (fun j => x4 (ix2 j d)) (x5 (ix2 0 d))
def blockLv (x0 : Mat 2048 256) (x2 : Mat 256 512) (x3 : Mat 1 512) (x6 : Mat 256 64) (x7 : Mat 1 64)
    (r : Fin 2048) (d : Fin 64) : EReal :=
  headAt (fun k => x0 (ix2 r k)) (fun k j => x2 (ix2 k (hi j))) (fun j => x3 (ix2 0 (hi j))) (fun j => x6 (ix2 j d)) (x7 (ix2 0 d))

/-- What the body writes to every entry of the output block, from its ten input blocks. -/
def blockOut (x0 : Mat 2048 256) (x1 : Mat 2048 64) (x2 : Mat 256 512) (x3 : Mat 1 512) (x4 : Mat 256 64) (x5 : Mat 1 64)
    (x6 : Mat 256 64) (x7 : Mat 1 64) (x8 x9 : Mat 1 64) : EReal :=
  (∑ r : Fin 2048, ∑ d : Fin 64,
    (posTerm (blockMu x0 x2 x3 x4 x5 r d) (invVarAt (blockLv x0 x2 x3 x6 x7 r d)) (x1 (ix2 r d))
      - negTerm (blockMu x0 x2 x3 x4 x5 r d) (invVarAt (blockLv x0 x2 x3 x6 x7 r d)) (x8 (ix2 0 d)) (x9 (ix2 0 d)))) * cScale

end Cert.Spec

end
-- ==== Proof.RefValue.lean ====
/-
  The reference program computes `Spec.refResult`.

  The generated reading of the reference gives each of its stages at an index from its operands at an index. Here
  the stages are followed in program order at explicit coordinates: a row n < 8192, a hidden unit j < 256, an output
  d < 64.

    h(n,j)   = max(sum_k x(n,k) w1(k,j) + b1(j), 0)       the first layer: a row times a column, plus the bias
                                                          broadcast along the rows, clipped below at the zero word
    mu(n,d)  = sum_j h(n,j) w2(j,d) + b2(d)               the second layer, bias broadcast along the rows
    lv(n,d)  = the same two stages at the other head's four weight arrays
    e(n,d)   = exp(-tanh(lv(n,d)))
    ybar(d)  = (0 + sum_n y(n,d)) / 8192,   y2bar(d) = (0 + sum_n y(n,d) y(n,d)) / 8192
    pos(n,d) = -((mu - y)(mu - y)) e (1/2)
    neg(n,d) = -(mu mu - (2 mu) ybar + y2bar) e (1/2)
    result   = (0 + sum_n ((0 + sum_d pos(n,d)) - (0 + sum_d neg(n,d)))) / 8192

  Each sum starts from the zero word, which is the real number 0, so it drops out. Every other float word (8192, 1/2,
  2) is the same word on both sides and is never evaluated. A broadcast reads its operand at the coordinates it keeps,
  so a bias broadcast [a] -> [1,a] -> [8192,a] read at (n,j) is the bias at j, and a constant broadcast is the constant.
-/
import proofs.«102251_j12360915878462_2_alg».proof.Proof.Gen.ReferenceIdeal.Read
import proofs.«102251_j12360915878462_2_alg».proof.Proof.Spec

noncomputable section

open scoped BigOperators

namespace Cert.RefValue

open Idealize.ShloMosaic Idealize.ShloMosaic.ValueIdx Cert.Spec Cert.ReferenceIdeal.Read

/-! ## One head -/

/-- The first layer at (n, j). The product's entry (n, j) is the sum over k of x(n,k) w1(k,j): its left index is
    (n, k) and its right index is (k, j). The bias, broadcast to [1,256] and then along the 8192 rows, is read at j.
    The clip's other operand is the zero word broadcast to every entry, and the zero word is 0. -/
theorem hidden_at (x0 : Mat 8192 256) (w1 : Mat 256 256) (b1 : Vct 256) (n : Fin 8192) (j : Fin 256) :
    val_main_v4 (F := Ideal) x0 w1 b1 (ix2 n j)
      = hiddenAt (fun k => x0 (ix2 n k)) (fun k => w1 (ix2 k j)) (b1 (ix1 j)) := by
  have el : ∀ k : Fin 256, lidx_main_v0 (ix2 n j) k = ix2 n k := fun k =>
    funext fun a => Fin.ext (by match a with | ⟨0, _⟩ => rfl | ⟨1, _⟩ => rfl)
  have er : ∀ k : Fin 256, ridx_main_v0 (ix2 n j) k = ix2 k j := fun k =>
    funext fun a => Fin.ext (by match a with | ⟨0, _⟩ => rfl | ⟨1, _⟩ => rfl)
  have eb : idx_main_v1 (idx_main_v2 (ix2 n j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.ofBits_def, Ideal.ofBits_zero_f32, Ideal.addf_def, Ideal.maximumf_def]
  rfl

/-- The second layer at (n, d): the sum over the hidden units j of h(n,j) w2(j,d), plus the bias at d. -/
theorem head_at (x0 : Mat 8192 256) (w1 : Mat 256 256) (b1 : Vct 256) (w2 : Mat 256 64) (b2 : Vct 64)
    (n : Fin 8192) (d : Fin 64) :
    val_main_v8 (F := Ideal) x0 w1 b1 w2 b2 (ix2 n d)
      = headAt (fun k => x0 (ix2 n k)) (fun k j => w1 (ix2 k j)) (fun j => b1 (ix1 j))
          (fun j => w2 (ix2 j d)) (b2 (ix1 d)) := by
  have el : ∀ j : Fin 256, lidx_main_v5 (ix2 n d) j = ix2 n j := fun j =>
    funext fun a => Fin.ext (by match a with | ⟨0, _⟩ => rfl | ⟨1, _⟩ => rfl)
  have er : ∀ j : Fin 256, ridx_main_v5 (ix2 n d) j = ix2 j d := fun j =>
    funext fun a => Fin.ext (by match a with | ⟨0, _⟩ => rfl | ⟨1, _⟩ => rfl)
  have eb : idx_main_v6 (idx_main_v7 (ix2 n d)) = ix1 d :=
    funext fun a => Fin.ext (by match a with | ⟨0, _⟩ => rfl)
  rw [val_main_v8_apply, val_main_v5_apply, val_main_v7_apply, val_main_v6_apply]
  simp only [el, er, eb, hidden_at, Ideal.addf_def]
  rfl

/-- The log-variance head is the mean head's two layers applied to the other four weight arrays: the same
    operations on the same shapes, so the two stages are one function of their five arguments. -/
theorem head2_eq (x0 : Mat 8192 256) (w1 : Mat 256 256) (b1 : Vct 256) (w2 : Mat 256 64) (b2 : Vct 64) :
    val_main_v17 (F := Ideal) x0 w1 b1 w2 b2 = val_main_v8 (F := Ideal) x0 w1 b1 w2 b2 := rfl

/-- The inverse variance at (n, d): exp(-tanh(.)) of the head's output, entry by entry. -/
theorem invVar_at (x0 : Mat 8192 256) (w1 : Mat 256 256) (b1 : Vct 256) (w2 : Mat 256 64) (b2 : Vct 64)
    (n : Fin 8192) (d : Fin 64) :
    val_main_v20 (F := Ideal) x0 w1 b1 w2 b2 (ix2 n d)
      = invVarAt (headAt (fun k => x0 (ix2 n k)) (fun k j => w1 (ix2 k j)) (fun j => b1 (ix1 j))
          (fun j => w2 (ix2 j d)) (b2 (ix1 d))) := by
  rw [val_main_v20_apply, val_main_v19_apply, val_main_v18_apply, head2_eq, head_at]
  simp only [Ideal.hostUnary_exp_def, Ideal.hostUnary_tanh_def, Ideal.hostNegf_def, Ideal.negf_def]
  rfl

/-! ## The batch means of the targets -/

/-- ybar(d): the sum along the rows starts from the zero word, 0 + sum_n y(n,d), and is divided by the word 8192. -/
theorem yMean_at (y : Mat 8192 64) (d : Fin 64) :
    val_main_v29 (F := Ideal) y (ix1 d) = yMean y d := by
  have e : ∀ n : Fin 8192, idx_main_v27 (ix1 d) n = ix2 n d := fun n =>
    funext fun a => Fin.ext (by match a with | ⟨0, _⟩ => rfl | ⟨1, _⟩ => rfl)
  rw [val_main_v29_apply, val_main_v27_apply, val_main_v28_apply, val_main_cst_0_apply, val_main_cst_1_apply]
  simp only [e, Ideal.ofBits_def, Ideal.ofBits_zero_f32, zero_add, Ideal.hostDivf_def]
  rfl

/-- y2bar(d): the same with y(n,d) y(n,d) under the sum. -/
theorem ySqMean_at (y : Mat 8192 64) (d : Fin 64) :
    val_main_v33 (F := Ideal) y (ix1 d) = ySqMean y d := by
  have e : ∀ n : Fin 8192, idx_main_v31 (ix1 d) n = ix2 n d := fun n =>
    funext fun a => Fin.ext (by match a with | ⟨0, _⟩ => rfl | ⟨1, _⟩ => rfl)
  rw [val_main_v33_apply, val_main_v31_apply, val_main_v32_apply, val_main_cst_2_apply, val_main_cst_3_apply]
  simp only [e, val_main_v30_apply, Ideal.ofBits_def, Ideal.ofBits_zero_f32, zero_add, Ideal.hostDivf_def,
    Ideal.mulf_def]
  rfl

/-! ## The two terms -/

/-- pos(n,d) = ((-((mu - y)(mu - y))) e) (1/2), in the order the program multiplies. -/
theorem pos_at (x0 : Mat 8192 256) (x1 : Mat 8192 64) (x2 : Mat 256 256) (x3 : Vct 256) (x4 : Mat 256 64)
    (x5 : Vct 64) (x6 : Mat 256 256) (x7 : Vct 256) (x8 : Mat 256 64) (x9 : Vct 64) (n : Fin 8192) (d : Fin 64) :
    val_main_v26 (F := Ideal) x0 x1 x2 x3 x4 x5 x6 x7 x8 x9 (ix2 n d)
      = Args.pos ⟨x0, x1, x2, x3, x4, x5, x6, x7, x8, x9⟩ n d := by
  rw [val_main_v26_apply, val_main_v24_apply, val_main_v23_apply, val_main_v22_apply, val_main_v21_apply,
    val_main_v25_apply, val_main_cst_apply, head_at, invVar_at]
  simp only [Ideal.ofBits_def, Ideal.mulf_def, Ideal.subf_def, Ideal.hostNegf_def, Ideal.negf_def]
  rfl

/-- neg(n,d) = ((-((mu mu - (2 mu) ybar(d)) + y2bar(d))) e) (1/2). The two batch means are vectors over d, broadcast
    to [1,64] and then along the rows, so at (n, d) they are read at d. -/
theorem neg_at (x0 : Mat 8192 256) (x1 : Mat 8192 64) (x2 : Mat 256 256) (x3 : Vct 256) (x4 : Mat 256 64)
    (x5 : Vct 64) (x6 : Mat 256 256) (x7 : Vct 256) (x8 : Mat 256 64) (x9 : Vct 64) (n : Fin 8192) (d : Fin 64) :
    val_main_v47 (F := Ideal) x0 x1 x2 x3 x4 x5 x6 x7 x8 x9 (ix2 n d)
      = Args.neg ⟨x0, x1, x2, x3, x4, x5, x6, x7, x8, x9⟩ n d := by
  have e1 : idx_main_v37 (idx_main_v38 (ix2 n d)) = ix1 d :=
    funext fun a => Fin.ext (by match a with | ⟨0, _⟩ => rfl)
  have e2 : idx_main_v41 (idx_main_v42 (ix2 n d)) = ix1 d :=
    funext fun a => Fin.ext (by match a with | ⟨0, _⟩ => rfl)
  rw [val_main_v47_apply, val_main_v45_apply, val_main_v44_apply, val_main_v43_apply, val_main_v40_apply,
    val_main_v34_apply, val_main_v39_apply, val_main_v36_apply, val_main_v35_apply, val_main_cst_4_apply,
    val_main_v38_apply, val_main_v37_apply, val_main_v42_apply, val_main_v41_apply, val_main_v46_apply,
    val_main_cst_5_apply, e1, e2, yMean_at, ySqMean_at, head_at, invVar_at]
  simp only [Ideal.ofBits_def, Ideal.mulf_def, Ideal.subf_def, Ideal.addf_def, Ideal.hostNegf_def, Ideal.negf_def]
  rfl

/-! ## The sums -/

/-- Row n of the difference: (0 + sum_d pos(n,d)) - (0 + sum_d neg(n,d)), the two sums along the outputs. -/
theorem rowDiff_at (x0 : Mat 8192 256) (x1 : Mat 8192 64) (x2 : Mat 256 256) (x3 : Vct 256) (x4 : Mat 256 64)
    (x5 : Vct 64) (x6 : Mat 256 256) (x7 : Vct 256) (x8 : Mat 256 64) (x9 : Vct 64) (n : Fin 8192) :
    val_main_v50 (F := Ideal) x0 x1 x2 x3 x4 x5 x6 x7 x8 x9 (ix1 n)
      = (∑ d : Fin 64, Args.pos ⟨x0, x1, x2, x3, x4, x5, x6, x7, x8, x9⟩ n d)
        - ∑ d : Fin 64, Args.neg ⟨x0, x1, x2, x3, x4, x5, x6, x7, x8, x9⟩ n d := by
  have e1 : ∀ d : Fin 64, idx_main_v48 (ix1 n) d = ix2 n d := fun d =>
    funext fun a => Fin.ext (by match a with | ⟨0, _⟩ => rfl | ⟨1, _⟩ => rfl)
  have e2 : ∀ d : Fin 64, idx_main_v49 (ix1 n) d = ix2 n d := fun d =>
    funext fun a => Fin.ext (by match a with | ⟨0, _⟩ => rfl | ⟨1, _⟩ => rfl)
  rw [val_main_v50_apply, val_main_v48_apply, val_main_v49_apply, val_main_cst_6_apply, val_main_cst_7_apply]
  simp only [e1, e2, pos_at, neg_at, Ideal.ofBits_def, Ideal.ofBits_zero_f32, zero_add, Ideal.subf_def]

/-- An index of a vector of 8192 entries is its one coordinate, and every coordinate is an index's. -/
def rowEquiv : (⟨1, ![8192]⟩ : Shape).Idx ≃ Fin 8192 where
  toFun j := j 0
  invFun n := ix1 n
  left_inv j := (eq_ix1 j).symm
  right_inv _ := rfl

/-- The result: the sum over every index of the vector of row differences is the sum over the rows n (along the
    bijection above), it starts from the zero word, and it is divided by the word 8192. -/
theorem ref_eq (x0 : Mat 8192 256) (x1 : Mat 8192 64) (x2 : Mat 256 256) (x3 : Vct 256) (x4 : Mat 256 64)
    (x5 : Vct 64) (x6 : Mat 256 256) (x7 : Vct 256) (x8 : Mat 256 64) (x9 : Vct 64) :
    Cert.ReferenceIdeal.Read.val_main_v52 (F := Ideal) x0 x1 x2 x3 x4 x5 x6 x7 x8 x9
      = fun _ => refResult ⟨x0, x1, x2, x3, x4, x5, x6, x7, x8, x9⟩ := by
  funext i
  rw [val_main_v52_apply, val_main_v51_apply, val_main_cst_8_apply, val_main_cst_9_apply,
    ← Equiv.sum_comp rowEquiv.symm]
  simp only [Ideal.ofBits_def, Ideal.ofBits_zero_f32, zero_add, Ideal.hostDivf_def]
  unfold refResult
  refine congrArg (fun s => Ideal.div s cN) (Finset.sum_congr rfl fun n _ => ?_)
  exact rowDiff_at x0 x1 x2 x3 x4 x5 x6 x7 x8 x9 n

end Cert.RefValue

end
-- ==== Proof.Prefix.lean ====
/-
  The arrays the kernel's region finds, read at an index as functions of the ten arguments.

  Before the region the host lays the two first-layer weight matrices side by side, [256, 512]: column j < 256
  is column j of the mean head's, column 256 + j is column j of the log-variance head's; likewise the two
  first-layer biases, [1, 512]. The second layers are passed as they are (a change of float format is the
  identity on the extended reals) and their biases as one row [1, 64]. The batch means of y and of y^2 are
  computed here too, as one row [1, 64] each: a sum over the 8192 rows from the zero word, divided by 8192.
-/
import proofs.«102251_j12360915878462_2_alg».proof.Proof.Gen.KernelIdeal.Frame
import proofs.«102251_j12360915878462_2_alg».proof.Proof.Spec
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.Prefix

open Idealize.ShloMosaic Idealize.ShloMosaic.TcCoe Idealize.SL.Sem Idealize.ShloMosaic.StableHlo Idealize.ShloMosaic.ValueIdx
open Cert.KernelIdeal Cert.KernelIdeal.Gen Cert.Spec

variable (m : (ℓ : Loc nD τ sig) → Buf (Elt Ideal) ℓ) (c : Dev nD)

/-! ## Each array as the host operations' term -/

theorem v10_term : (V m c main_v10 : S256x512.Idx → EReal)
    = truncf (F := Ideal) .bf16 (concatenate S256x512 1 [⟨S256x256, m ((c : Thread nD τ).loc main_arg2)⟩, ⟨S256x256, m ((c : Thread nD τ).loc main_arg6)⟩] concatenates_S256x256_S256x256_S256x512_d1) bitsLt_bf16_f32 := by
  show StableHlo.after hostOps0 (fun b => m (c, b)) (Proc.devRef .tc main_v10) = _
  after_results
  all_goals rfl

theorem v12_term : (V m c main_v12 : S1x512.Idx → EReal)
    = shapeCast S1x512 (concatenate S512 0 [⟨S256, m ((c : Thread nD τ).loc main_arg3)⟩, ⟨S256, m ((c : Thread nD τ).loc main_arg7)⟩] concatenates_S256_S256_S512_d0) shapeCasts_S512_S1x512 := by
  show StableHlo.after hostOps0 (fun b => m (c, b)) (Proc.devRef .tc main_v12) = _
  after_results
  all_goals rfl

theorem v13_term : (V m c main_v13 : S256x64.Idx → EReal) = m ((c : Thread nD τ).loc main_arg4) := by
  show StableHlo.after hostOps0 (fun b => m (c, b)) (Proc.devRef .tc main_v13) = _
  after_results
  all_goals rfl

theorem v14_term : (V m c main_v14 : S256x64.Idx → EReal) = m ((c : Thread nD τ).loc main_arg8) := by
  show StableHlo.after hostOps0 (fun b => m (c, b)) (Proc.devRef .tc main_v14) = _
  after_results
  all_goals rfl

theorem v15_term : (V m c main_v15 : S1x64.Idx → EReal) = shapeCast S1x64 (m ((c : Thread nD τ).loc main_arg5)) shapeCasts_S64_S1x64 := by
  show StableHlo.after hostOps0 (fun b => m (c, b)) (Proc.devRef .tc main_v15) = _
  after_results
  all_goals rfl

theorem v16_term : (V m c main_v16 : S1x64.Idx → EReal) = shapeCast S1x64 (m ((c : Thread nD τ).loc main_arg9)) shapeCasts_S64_S1x64 := by
  show StableHlo.after hostOps0 (fun b => m (c, b)) (Proc.devRef .tc main_v16) = _
  after_results
  all_goals rfl

theorem v3_term : (V m c main_v3 : S1x64.Idx → EReal)
    = shapeCast S1x64 (Host.divf (F := Ideal) (Host.reduceAdd (m ((c : Thread nD τ).loc main_arg1)) (constant (F := Ideal) S_ .f32 0x00000000#32) reducesTo_S8192x64_S64_d0 h_S_) (broadcastInDim S64 ![] bcast_S_S64 (constant (F := Ideal) S_ .f32 0x46000000#32))) shapeCasts_S64_S1x64 := by
  show StableHlo.after hostOps0 (fun b => m (c, b)) (Proc.devRef .tc main_v3) = _
  after_results
  all_goals rfl

theorem v8_term : (V m c main_v8 : S1x64.Idx → EReal)
    = shapeCast S1x64 (Host.divf (F := Ideal) (Host.reduceAdd (mulf (m ((c : Thread nD τ).loc main_arg1)) (m ((c : Thread nD τ).loc main_arg1))) (constant (F := Ideal) S_ .f32 0x00000000#32) reducesTo_S8192x64_S64_d0 h_S_) (broadcastInDim S64 ![] bcast_S_S64 (constant (F := Ideal) S_ .f32 0x46000000#32))) shapeCasts_S64_S1x64 := by
  show StableHlo.after hostOps0 (fun b => m (c, b)) (Proc.devRef .tc main_v8) = _
  after_results
  all_goals rfl

/-! ## The same, at an index -/

/-- Column j of the joined first layers is column j of the mean head's. -/
theorem w1_lo (k j : Fin 256) : V m c main_v10 (ix2 k (lo j)) = m ((c : Thread nD τ).loc main_arg2) (ix2 k j) := by
  rw [v10_term]
  refine (truncf_apply _ bitsLt_bf16_f32 _).trans ?_
  refine (concatenate_pair_apply_left (t := S256x512) (s₁ := S256x256) (s₂ := S256x256) (1 : Fin 2) (m ((c : Thread nD τ).loc main_arg2)) (m ((c : Thread nD τ).loc main_arg6)) concatenates_S256x256_S256x256_S256x512_d1 (ix2 k (lo j)) rfl (ix2 k j) fun b => ?_)
  match b with
  | ⟨0, _⟩ => rfl
  | ⟨1, _⟩ => rfl

/-- Column 256 + j of the joined first layers is column j of the log-variance head's. -/
theorem w1_hi (k j : Fin 256) : V m c main_v10 (ix2 k (hi j)) = m ((c : Thread nD τ).loc main_arg6) (ix2 k j) := by
  rw [v10_term]
  refine (truncf_apply _ bitsLt_bf16_f32 _).trans ?_
  refine (concatenate_pair_apply_right (t := S256x512) (s₁ := S256x256) (s₂ := S256x256) (1 : Fin 2) (m ((c : Thread nD τ).loc main_arg2)) (m ((c : Thread nD τ).loc main_arg6)) concatenates_S256x256_S256x256_S256x512_d1 (ix2 k (hi j)) rfl rfl (ix2 k j) (fun b hb => ?_) ?_)
  · match b with
    | ⟨0, _⟩ => rfl
    | ⟨1, _⟩ => exact absurd rfl hb
  · show j.val + 256 = 256 + j.val
    omega

/-- The joined biases: entry j is the mean head's, entry 256 + j the log-variance head's. -/
theorem b1_lo (j : Fin 256) : V m c main_v12 (ix2 (0 : Fin 1) (lo j)) = m ((c : Thread nD τ).loc main_arg3) (ix1 j) := by
  rw [v12_term]
  refine (shapeCast_a_1a_apply _ shapeCasts_S512_S1x512 0 (lo j)).trans ?_
  refine (concatenate_pair_apply_left (t := S512) (s₁ := S256) (s₂ := S256) (0 : Fin 1) (m ((c : Thread nD τ).loc main_arg3)) (m ((c : Thread nD τ).loc main_arg7)) concatenates_S256_S256_S512_d0 (ix1 (lo j)) rfl (ix1 j) fun b => ?_)
  match b with
  | ⟨0, _⟩ => rfl

theorem b1_hi (j : Fin 256) : V m c main_v12 (ix2 (0 : Fin 1) (hi j)) = m ((c : Thread nD τ).loc main_arg7) (ix1 j) := by
  rw [v12_term]
  refine (shapeCast_a_1a_apply _ shapeCasts_S512_S1x512 0 (hi j)).trans ?_
  refine (concatenate_pair_apply_right (t := S512) (s₁ := S256) (s₂ := S256) (0 : Fin 1) (m ((c : Thread nD τ).loc main_arg3)) (m ((c : Thread nD τ).loc main_arg7)) concatenates_S256_S256_S512_d0 (ix1 (hi j)) rfl rfl (ix1 j) (fun b hb => ?_) ?_)
  · match b with
    | ⟨0, _⟩ => exact absurd rfl hb
  · show j.val + 256 = 256 + j.val
    omega

/-- The second-layer biases as one row. -/
theorem b2m (d : Fin 64) : V m c main_v15 (ix2 (0 : Fin 1) d) = m ((c : Thread nD τ).loc main_arg5) (ix1 d) := by
  rw [v15_term]; exact shapeCast_a_1a_apply _ shapeCasts_S64_S1x64 0 d

theorem b2l (d : Fin 64) : V m c main_v16 (ix2 (0 : Fin 1) d) = m ((c : Thread nD τ).loc main_arg9) (ix1 d) := by
  rw [v16_term]; exact shapeCast_a_1a_apply _ shapeCasts_S64_S1x64 0 d

/-- A sum over the rows of a [8192, 64] matrix, from the zero word, at column d. -/
theorem colSum (x : S8192x64.Idx → EReal) (d : Fin 64) :
    Host.reduceAdd (F := Ideal) x (constant (F := Ideal) S_ .f32 0x00000000#32) reducesTo_S8192x64_S64_d0 h_S_ (ix1 d)
      = ∑ n : Fin 8192, x (ix2 n d) := by
  simp only [Host.reduceAdd, Ideal.hostReduceAdd_def]
  rw [Ideal.hostReduceAdd_single reducesTo_S8192x64_S64_d0 (by decide)]
  show Ideal.ofBits .f32 0x00000000#32 + _ = _
  rw [Ideal.ofBits_zero_f32, zero_add]
  refine Finset.sum_congr rfl fun n _ => ?_
  exact congrArg x (funext fun a => Fin.ext (by match a with | ⟨0, _⟩ => rfl | ⟨1, _⟩ => rfl))

/-- The batch mean of y, one row. -/
theorem ybar (d : Fin 64) : V m c main_v3 (ix2 (0 : Fin 1) d) = yMean (m ((c : Thread nD τ).loc main_arg1)) d := by
  rw [v3_term]
  refine (shapeCast_a_1a_apply _ shapeCasts_S64_S1x64 0 d).trans ?_
  show Ideal.div (Host.reduceAdd (F := Ideal) _ _ reducesTo_S8192x64_S64_d0 h_S_ (ix1 d)) (Ideal.ofBits .f32 0x46000000#32) = _
  rw [colSum]
  rfl

/-- The batch mean of y^2, one row. -/
theorem y2bar (d : Fin 64) : V m c main_v8 (ix2 (0 : Fin 1) d) = ySqMean (m ((c : Thread nD τ).loc main_arg1)) d := by
  rw [v8_term]
  refine (shapeCast_a_1a_apply _ shapeCasts_S64_S1x64 0 d).trans ?_
  show Ideal.div (Host.reduceAdd (F := Ideal) _ _ reducesTo_S8192x64_S64_d0 h_S_ (ix1 d)) (Ideal.ofBits .f32 0x46000000#32) = _
  rw [colSum]
  rfl

end Cert.Prefix

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.Body.lean ====
/-
  What the kernel body writes to its output block, at every entry, as one function of its ten input blocks.

  The body is handed 2048 rows x0 [2048, 256] with their targets x1 [2048, 64], the two first layers laid side by
  side x2 [256, 512] (columns 0..255 the mean head, 256..511 the log-variance head) with their biases x3 [1, 512],
  the second layers x4, x6 [256, 64] with biases x5, x7 [1, 64], and the batch means x8 of y and x9 of y^2, [1, 64].
  It computes

    h(r, c)  = max(sum_k x0(r, k) x2(k, c) + x3(0, c), 0)                       the 512 hidden units of row r
    mu(r, d) = sum_j h(r, j) x4(j, d) + x5(0, d)                                 from the first 256 of them
    lv(r, d) = sum_j h(r, 256 + j) x6(j, d) + x7(0, d)                           from the last 256
    e(r, d)  = exp(0 - tanh(lv(r, d)))
    t(r, d)  = (0 - (mu - x1(r, d))^2) e / 2 - (0 - (mu^2 - 2 mu x8(0, d) + x9(0, d))) e / 2

  and stores  (sum_r sum_d t(r, d)) 2^-10  at each of the 1 x 8 x 128 entries of the output block. On the extended
  reals a change of float format is the identity, the zero word is 0 and 0 - t = -t, so this is Spec.blockOut.

  The proof reads each array operation at one entry. A matrix product into the zero accumulator is at (p, q) the
  sum over k of lhs(p, k) rhs(k, q); a row [1, b] broadcast to [a, b] is at (p, c) the row at c; a cut of columns
  from offset o is at (r, j) the source at (r, o + j); a cast to the same shape is the identity. The total is taken
  in two steps: the row sums, a vector [2048], are cast to a column [2048, 1] and the column is summed along its
  first axis; the one number is cast [1] -> [1, 1], multiplied by 2^-10, cast [1, 1] -> [1, 1, 1] and broadcast to
  [1, 8, 128]. Every coordinate on an axis of extent one is 0.
-/
import proofs.«102251_j12360915878462_2_alg».proof.Proof.Gen.KernelIdeal.Frame
import proofs.«102251_j12360915878462_2_alg».proof.Proof.Spec
import proofs.«102251_j12360915878462_2_alg».proof.Proof.LibPlainDot
import proofs.«102251_j12360915878462_2_alg».proof.Proof.LibColumn
import Idealize.ShloMosaic.Lib.ValueLayout
import Idealize.ShloMosaic.Lib.Pipeline.Value
import Idealize.ShloMosaic.PureOps.Ideal.Laws

noncomputable section

open scoped BigOperators

namespace Cert.Body

open Idealize.ShloMosaic Idealize.ShloMosaic.ValueIdx Cert.KernelIdeal Cert.KernelIdeal.Gen Cert.Spec

/-! ## The hidden layer and the two heads -/

/-- Hidden unit c of row r: entry (r, c) of the product x0 · x2 is the sum over k of x0(r, k) x2(k, c) (rounding x0
    to the narrower format and casting x2 to its own shape change nothing); the bias row x3, repeated along the
    2048 rows, adds x3(0, c); and the maximum with the zero word is the maximum with 0. -/
theorem pay2_apply (x0 : Vec Ideal S2048x256 .f32) (x2 : Vec Ideal S256x512 .bf16) (x3 : Vec Ideal S1x512 .f32)
    (r : Fin 2048) (c : Fin 512) :
    k0_pay2 (F := Ideal) x0 x2 x3 (ix2 r c)
      = hiddenAt (fun k => x0 (ix2 r k)) (fun k => x2 (ix2 k c)) (x3 (ix2 0 c)) := by
  unfold k0_pay2 hiddenAt
  refine congrArg₂ max (congrArg₂ (· + ·) ?_ ?_) Ideal.ofBits_zero_f32
  · refine (Cert.LibPlainDot.matmul_zero_apply (M := 2048) (K := 256) (N := 512) none
      (truncf .bf16 x0 bitsLt_bf16_f32) (shapeCast S256x512 x2 shapeCasts_S256x512_S256x512) r c).trans ?_
    exact Finset.sum_congr rfl fun k _ =>
      congrArg (x0 (ix2 r k) * ·) (congrFun (shapeCast_self x2 shapeCasts_S256x512_S256x512) (ix2 k c))
  · exact (broadcastTo_1b_ab_apply _ broadcasts_S1x512_S2048x512 r c).trans
      (congrFun (shapeCast_self x3 shapeCasts_S1x512_S1x512) (ix2 0 c))

/-- The mean head at (r, d): the first 256 columns of the hidden layer, cut from offset 0, are at (r, j) the hidden
    unit `lo j` = j of row r; their product with x4 is at (r, d) the sum over j of h(r, j) x4(j, d); the bias row x5
    adds x5(0, d). -/
theorem pay3_apply (x0 : Vec Ideal S2048x256 .f32) (x2 : Vec Ideal S256x512 .bf16) (x3 : Vec Ideal S1x512 .f32)
    (x4 : Vec Ideal S256x64 .bf16) (x5 : Vec Ideal S1x64 .f32) (r : Fin 2048) (d : Fin 64) :
    k0_pay3 (F := Ideal) x0 x2 x3 x4 x5 (ix2 r d) = blockMu x0 x2 x3 x4 x5 r d := by
  unfold k0_pay3 blockMu headAt
  refine congrArg₂ (· + ·) ?_ ?_
  · refine (Cert.LibPlainDot.matmul_zero_apply (M := 2048) (K := 256) (N := 64) none _ _ r d).trans ?_
    refine Finset.sum_congr rfl fun j _ => congrArg₂ (· * ·) ?_
      (congrFun (shapeCast_self x4 shapeCasts_S256x64_S256x64) (ix2 j d))
    exact (slice2_axis1_apply 0 (k0_pay2 x0 x2 x3) slices_S2048x512_o0_0_S2048x256 r j (lo j)
      (Nat.zero_add j.val).symm).trans (pay2_apply x0 x2 x3 r (lo j))
  · exact (broadcastTo_1b_ab_apply _ broadcasts_S1x64_S2048x64 r d).trans
      (congrFun (shapeCast_self x5 shapeCasts_S1x64_S1x64) (ix2 0 d))

/-- The inverse variance at (r, d): the last 256 columns of the hidden layer, cut from offset 256, are at (r, j) the
    hidden unit `hi j` = 256 + j of row r; their product with x6 plus the bias row x7 is lv(r, d); and
    exp(0 - tanh(lv)) with the zero word is exp(-tanh(lv)). -/
theorem pay4_apply (x0 : Vec Ideal S2048x256 .f32) (x2 : Vec Ideal S256x512 .bf16) (x3 : Vec Ideal S1x512 .f32)
    (x6 : Vec Ideal S256x64 .bf16) (x7 : Vec Ideal S1x64 .f32) (r : Fin 2048) (d : Fin 64) :
    k0_pay4 (F := Ideal) x0 x2 x3 x6 x7 (ix2 r d) = invVarAt (blockLv x0 x2 x3 x6 x7 r d) := by
  unfold k0_pay4 invVarAt
  refine congrArg Ideal.exp ?_
  refine (congrArg₂ (· - ·) Ideal.ofBits_zero_f32 (congrArg Ideal.tanh ?_)).trans (zero_sub _)
  unfold blockLv headAt
  refine congrArg₂ (· + ·) ?_ ?_
  · refine (Cert.LibPlainDot.matmul_zero_apply (M := 2048) (K := 256) (N := 64) none _ _ r d).trans ?_
    refine Finset.sum_congr rfl fun j _ => congrArg₂ (· * ·) ?_
      (congrFun (shapeCast_self x6 shapeCasts_S256x64_S256x64) (ix2 j d))
    exact (slice2_axis1_apply 256 (k0_pay2 x0 x2 x3) slices_S2048x512_o0_256_S2048x256 r j (hi j) rfl).trans
      (pay2_apply x0 x2 x3 r (hi j))
  · exact (broadcastTo_1b_ab_apply _ broadcasts_S1x64_S2048x64 r d).trans
      (congrFun (shapeCast_self x7 shapeCasts_S1x64_S1x64) (ix2 0 d))

/-! ## The total -/

/-- With the zero word, 0 - t is -t. -/
theorem zero_word_sub (t : EReal) : Ideal.ofBits .f32 0x00000000#32 - t = -t := by
  rw [Ideal.ofBits_zero_f32, zero_sub]

/-- An additive reduction of a column [a, 1] along its first axis, from the zero word, is the sum over n < a of the
    entries (n, 0): the reduced coordinate n is put back on the first axis, and the result's one coordinate, 0,
    stays on the second. -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) :
    multiReduction (F := Ideal) .add [0] ⟨1, ![1]⟩ src 0x00000000#32 h hφ hacc (ix1 (0 : Fin 1))
      = ∑ n : Fin a, src (ix2 n (0 : Fin 1)) :=
  (Ideal.multiReduction_add_single src 0x00000000#32 h hφ hacc (ix1 (0 : Fin 1))).trans
    (Finset.sum_congr rfl fun n _ => congrArg src (funext fun c => Fin.ext (by
      match c with
      | ⟨0, _⟩ => rfl
      | ⟨1, _⟩ => rfl)))

/-- The stored value at (0, a, b), for any mean mu, inverse variance e, targets y [2048, 64] and rows ybar, y2bar
    [1, 64]: outermost first, the broadcast [1, 1, 1] -> [1, 8, 128] reads (0, 0, 0), the cast from [1, 1] reads
    (0, 0), there the product is (the total) · 2^-10, the cast from [1] reads 0, the column's sum is the sum over
    the rows r of the column at (r, 0), which is the vector of row sums at r, the sum over d of the entry (r, d);
    and that entry is
      (0 - (mu - y)^2) e / 2 - (0 - (mu^2 - 2 mu ybar(0, d) + y2bar(0, d))) e / 2
    with both rows repeated along the 2048 rows, which is posTerm - negTerm once 0 - t is written -t. -/
theorem pay1_apply (v21 v32 v33 : FVec Ideal S2048x64 .f32) (v35 v36 : FVec Ideal S1x64 .f32) (a : Fin 8) (b : Fin 128) :
    k0_pay1 (F := Ideal) v21 v32 v33 v35 v36 (ix3 (0 : Fin 1) a b)
      = (∑ r : Fin 2048, ∑ d : Fin 64,
          (posTerm (v21 (ix2 r d)) (v32 (ix2 r d)) (v33 (ix2 r d))
            - negTerm (v21 (ix2 r d)) (v32 (ix2 r d)) (v35 (ix2 0 d)) (v36 (ix2 0 d)))) * cScale := by
  unfold k0_pay1
  refine (broadcastTo_apply _ broadcasts_S1x1x1_S1x8x128 (ix3 (0 : Fin 1) a b) (ix3 (0 : Fin 1) (0 : Fin 1) (0 : Fin 1))
    fun ax => by match ax with | ⟨0, _⟩ => rfl | ⟨1, _⟩ => rfl | ⟨2, _⟩ => rfl).trans ?_
  refine (shapeCast_ab_1ab_apply _ shapeCasts_S1x1_S1x1x1 (0 : Fin 1) (0 : Fin 1) (0 : Fin 1)).trans ?_
  refine congrArg (· * cScale) ?_
  refine (shapeCast_a_1a_apply _ shapeCasts_S1_S1x1 (0 : Fin 1) (0 : Fin 1)).trans ?_
  refine (colSum_apply _ reduces_S2048x1_S1 (.inl rfl) rfl).trans ?_
  refine Finset.sum_congr rfl fun r _ => ?_
  refine (Cert.LibColumn.shapeCast_a_a1_apply _ shapeCasts_S2048_S2048x1 r (0 : Fin 1)).trans ?_
  refine (Cert.LibColumn.rowSum_apply _ reduces_S2048x64_S2048 (.inl rfl) rfl r).trans ?_
  refine Finset.sum_congr rfl fun d _ => ?_
  unfold posTerm negTerm
  refine congrArg₂ (· - ·)
    (congrArg (· * v32 (ix2 r d) * cHalf) (zero_word_sub _))
    (congrArg (· * v32 (ix2 r d) * cHalf) ((zero_word_sub _).trans (congrArg Neg.neg ?_)))
  exact congrArg₂ (· + ·)
    (congrArg (v21 (ix2 r d) * v21 (ix2 r d) - cTwo * v21 (ix2 r d) * ·)
      (broadcastTo_1b_ab_apply v35 broadcasts_S1x64_S2048x64 r d))
    ((broadcastTo_1b_ab_apply _ broadcasts_S1x64_S2048x64 r d).trans
      (congrFun (shapeCast_self v36 shapeCasts_S1x64_S1x64) (ix2 0 d)))

/-! ## The output block -/

/-- The offsets of every load and of the store are zero on each axis. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The body loads each input block whole and stores its result over the whole output block once, so the output
    block is the stored value of the input blocks themselves. -/
theorem out_eq (x0 : Vec Ideal S2048x256 .f32) (x1 : Vec Ideal S2048x64 .f32) (x2 : Vec Ideal S256x512 .bf16)
    (x3 : Vec Ideal S1x512 .f32) (x4 : Vec Ideal S256x64 .bf16) (x5 : Vec Ideal S1x64 .f32) (x6 : Vec Ideal S256x64 .bf16)
    (x7 : Vec Ideal S1x64 .f32) (x8 : Vec Ideal S1x64 .f32) (x9 : Vec Ideal S1x64 .f32) :
    out0_10 (F := Ideal) x0 x1 x2 x3 x4 x5 x6 x7 x8 x9
      = k0_pay1 (k0_pay3 x0 x2 x3 x4 x5) (k0_pay4 x0 x2 x3 x6 x7) x1 (k0_pay5 x8) x9 := by
  unfold out0_10
  rw [View.canon_unit_zero hz3]
  simp only [View.ld_unit_zero (S := S2048x256) hz2, View.ld_unit_zero (S := S256x512) hz2,
    View.ld_unit_zero (S := S1x512) hz2, View.ld_unit_zero (S := S256x64) hz2, View.ld_unit_zero (S := S1x64) hz2,
    View.ld_unit_zero (S := S2048x64) hz2]

/-- Every entry of the output block is Spec.blockOut of the ten input blocks: the entry is (0, a, b), the stored
    value there is the scaled total of posTerm - negTerm over the rows and outputs, and in it the mean is blockMu,
    the inverse variance is invVarAt of blockLv, and the row of batch means, cast to its own shape, is x8. -/
theorem out_apply (x0 : Vec Ideal S2048x256 .f32) (x1 : Vec Ideal S2048x64 .f32) (x2 : Vec Ideal S256x512 .bf16)
    (x3 : Vec Ideal S1x512 .f32) (x4 : Vec Ideal S256x64 .bf16) (x5 : Vec Ideal S1x64 .f32) (x6 : Vec Ideal S256x64 .bf16)
    (x7 : Vec Ideal S1x64 .f32) (x8 : Vec Ideal S1x64 .f32) (x9 : Vec Ideal S1x64 .f32) (j : S1x8x128.Idx) :
    out0_10 (F := Ideal) x0 x1 x2 x3 x4 x5 x6 x7 x8 x9 j = blockOut x0 x1 x2 x3 x4 x5 x6 x7 x8 x9 := by
  rw [out_eq]
  obtain ⟨u, a, b, rfl⟩ : ∃ (u : Fin 1) (a : Fin 8) (b : Fin 128), j = ix3 u a b := ⟨j 0, j 1, j 2, eq_ix3 j⟩
  obtain rfl : u = 0 := Subsingleton.elim _ _
  refine (pay1_apply _ _ _ _ _ a b).trans ?_
  unfold blockOut
  refine congrArg (· * cScale) (Finset.sum_congr rfl fun r _ => Finset.sum_congr rfl fun d _ => ?_)
  have h5 : k0_pay5 (F := Ideal) x8 (ix2 (0 : Fin 1) d) = x8 (ix2 0 d) :=
    congrFun (shapeCast_self x8 shapeCasts_S1x64_S1x64) (ix2 0 d)
  rw [pay3_apply, pay4_apply, h5]

end Cert.Body

end
-- ==== Proof.Blocks.lean ====
/-
  From the four blocks to the array of partial results.

  The grid has four points. At point t the kernel body is handed rows 2048 t .. 2048 t + 2047 of x and of y
  (the block index along the first axis is t, and a block's coordinate is index x size + the coordinate inside
  the block) and, whole, the eight other operands as the host prepared them. The body's output block depends on
  the blocks only through the readings Spec.blockOut names, so substituting what each block holds turns it into
  Spec.tile at tile t. The output blocks are [1, 8, 128], block t at first coordinate t: the four of them tile
  the [4, 8, 128] array, each entry (i, a, b) lying in block i and in no other, so after the last write-back the
  array holds Spec.partials entry by entry.
-/
import proofs.«102251_j12360915878462_2_alg».proof.Proof.Gen.KernelIdeal.Frame
import proofs.«102251_j12360915878462_2_alg».proof.Proof.Spec
import proofs.«102251_j12360915878462_2_alg».proof.Proof.Prefix
import proofs.«102251_j12360915878462_2_alg».proof.Proof.Body
import Idealize.ShloMosaic.Lib.Pipeline.Value

noncomputable section

open scoped BigOperators

namespace Cert.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (c : Dev nD)

/-- The ten argument arrays on core c. -/
def args : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9)⟩

/-- Grid point t is tile t. -/
def tileOf (t : Fin cfg0.N) : Fin 4 := ⟨t.val, by have h : t.val < grid0.N := t.isLt; have := N_0; omega⟩

/-- The printed index maps over the grid: the rows and the targets move with the point along their first axis, the
    output block likewise; every other operand is one whole block. -/
theorem idx_facts : ∀ t : Fin cfg0.N,
    win0_10.index t (0 : Fin 3) = t.val ∧ win0_10.index t (1 : Fin 3) = 0 ∧ win0_10.index t (2 : Fin 3) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## The input blocks at point t, entry by entry -/

/-- Row r of the rows' block at point t is row 2048 t + r of the batch. -/
theorem read_x (t : Fin cfg0.N) (r : Fin 2048) (k : Fin 256) :
    iblk m c 0 t (ix2 r k) = (args m c).x (ix2 (row (tileOf t) r) k) := by
  show V m c main_arg0 (((cfg0.win 0).blk t).view.emb (ix2 r k)) = _
  refine (congrFun (V_main_arg0 m c) _).trans ?_
  refine congrArg (m ((c : Thread nD τ).loc main_arg0)) ?_
  obtain ⟨-, -, -, e0, e1, -, -⟩ := idx_facts t
  funext a; apply Fin.ext
  match a with
  | ⟨0, _⟩ => show win0_0.index t (0 : Fin 2) * 2048 + 1 * r.val = t.val * 2048 + r.val; omega
  | ⟨1, _⟩ => show win0_0.index t (1 : Fin 2) * 256 + 1 * k.val = k.val; omega

theorem read_y (t : Fin cfg0.N) (r : Fin 2048) (d : Fin 64) :
    iblk m c 1 t (ix2 r d) = (args m c).y (ix2 (row (tileOf t) r) d) := by
  show V m c main_arg1 (((cfg0.win 1).blk t).view.emb (ix2 r d)) = _
  refine (congrFun (V_main_arg1 m c) _).trans ?_
  refine congrArg (m ((c : Thread nD τ).loc main_arg1)) ?_
  obtain ⟨-, -, -, -, -, e0, e1⟩ := idx_facts t
  funext a; apply Fin.ext
  match a with
  | ⟨0, _⟩ => show win0_1.index t (0 : Fin 2) * 2048 + 1 * r.val = t.val * 2048 + r.val; omega
  | ⟨1, _⟩ => show win0_1.index t (1 : Fin 2) * 64 + 1 * d.val = d.val; omega

/-- The other eight operands are handed over whole at every point. -/
theorem read_w1 (t : Fin cfg0.N) (k : Fin 256) (j : Fin 512) : iblk m c 2 t (ix2 k j) = V m c main_v10 (ix2 k j) := by
  show V m c main_v10 (((cfg0.win 2).blk t).view.emb (ix2 k j)) = _
  refine congrArg (V m c main_v10) ?_
  obtain ⟨⟨e0, e1⟩, -⟩ := idx_whole t
  funext a; apply Fin.ext
  match a with
  | ⟨0, _⟩ => show win0_2.index t (0 : Fin 2) * 256 + 1 * k.val = k.val; omega
  | ⟨1, _⟩ => show win0_2.index t (1 : Fin 2) * 512 + 1 * j.val = j.val; omega

theorem read_b1 (t : Fin cfg0.N) (j : Fin 512) : iblk m c 3 t (ix2 (0 : Fin 1) j) = V m c main_v12 (ix2 (0 : Fin 1) j) := by
  show V m c main_v12 (((cfg0.win 3).blk t).view.emb (ix2 (0 : Fin 1) j)) = _
  refine congrArg (V m c main_v12) ?_
  obtain ⟨-, ⟨e0, e1⟩, -⟩ := idx_whole t
  funext a; apply Fin.ext
  match a with
  | ⟨0, _⟩ => show win0_3.index t (0 : Fin 2) * 1 + 1 * 0 = 0; omega
  | ⟨1, _⟩ => show win0_3.index t (1 : Fin 2) * 512 + 1 * j.val = j.val; omega

theorem read_w2m (t : Fin cfg0.N) (j : Fin 256) (d : Fin 64) : iblk m c 4 t (ix2 j d) = (args m c).mw2 (ix2 j d) := by
  show V m c main_v13 (((cfg0.win 4).blk t).view.emb (ix2 j d)) = _
  refine (congrFun (Prefix.v13_term m c) _).trans ?_
  refine congrArg (m ((c : Thread nD τ).loc main_arg4)) ?_
  obtain ⟨-, -, ⟨e0, e1⟩, -⟩ := idx_whole t
  funext a; apply Fin.ext
  match a with
  | ⟨0, _⟩ => show win0_4.index t (0 : Fin 2) * 256 + 1 * j.val = j.val; omega
  | ⟨1, _⟩ => show win0_4.index t (1 : Fin 2) * 64 + 1 * d.val = d.val; omega

theorem read_b2m (t : Fin cfg0.N) (d : Fin 64) : iblk m c 5 t (ix2 (0 : Fin 1) d) = (args m c).mb2 (ix1 d) := by
  show V m c main_v15 (((cfg0.win 5).blk t).view.emb (ix2 (0 : Fin 1) d)) = _
  refine Eq.trans (congrArg (V m c main_v15) ?_) (Prefix.b2m m c d)
  obtain ⟨-, -, -, ⟨e0, e1⟩, -⟩ := idx_whole t
  funext a; apply Fin.ext
  match a with
  | ⟨0, _⟩ => show win0_5.index t (0 : Fin 2) * 1 + 1 * 0 = 0; omega
  | ⟨1, _⟩ => show win0_5.index t (1 : Fin 2) * 64 + 1 * d.val = d.val; omega

theorem read_w2l (t : Fin cfg0.N) (j : Fin 256) (d : Fin 64) : iblk m c 6 t (ix2 j d) = (args m c).lw2 (ix2 j d) := by
  show V m c main_v14 (((cfg0.win 6).blk t).view.emb (ix2 j d)) = _
  refine (congrFun (Prefix.v14_term m c) _).trans ?_
  refine congrArg (m ((c : Thread nD τ).loc main_arg8)) ?_
  obtain ⟨-, -, -, -, ⟨e0, e1⟩, -⟩ := idx_whole t
  funext a; apply Fin.ext
  match a with
  | ⟨0, _⟩ => show win0_6.index t (0 : Fin 2) * 256 + 1 * j.val = j.val; omega
  | ⟨1, _⟩ => show win0_6.index t (1 : Fin 2) * 64 + 1 * d.val = d.val; omega

theorem read_b2l (t : Fin cfg0.N) (d : Fin 64) : iblk m c 7 t (ix2 (0 : Fin 1) d) = (args m c).lb2 (ix1 d) := by
  show V m c main_v16 (((cfg0.win 7).blk t).view.emb (ix2 (0 : Fin 1) d)) = _
  refine Eq.trans (congrArg (V m c main_v16) ?_) (Prefix.b2l m c d)
  obtain ⟨-, -, -, -, -, ⟨e0, e1⟩, -⟩ := idx_whole t
  funext a; apply Fin.ext
  match a with
  | ⟨0, _⟩ => show win0_7.index t (0 : Fin 2) * 1 + 1 * 0 = 0; omega
  | ⟨1, _⟩ => show win0_7.index t (1 : Fin 2) * 64 + 1 * d.val = d.val; omega

theorem read_ybar (t : Fin cfg0.N) (d : Fin 64) : iblk m c 8 t (ix2 (0 : Fin 1) d) = yMean (args m c).y d := by
  show V m c main_v3 (((cfg0.win 8).blk t).view.emb (ix2 (0 : Fin 1) d)) = _
  refine Eq.trans (congrArg (V m c main_v3) ?_) (Prefix.ybar m c d)
  obtain ⟨-, -, -, -, -, -, ⟨e0, e1⟩, -⟩ := idx_whole t
  funext a; apply Fin.ext
  match a with
  | ⟨0, _⟩ => show win0_8.index t (0 : Fin 2) * 1 + 1 * 0 = 0; omega
  | ⟨1, _⟩ => show win0_8.index t (1 : Fin 2) * 64 + 1 * d.val = d.val; omega

theorem read_y2bar (t : Fin cfg0.N) (d : Fin 64) : iblk m c 9 t (ix2 (0 : Fin 1) d) = ySqMean (args m c).y d := by
  show V m c main_v8 (((cfg0.win 9).blk t).view.emb (ix2 (0 : Fin 1) d)) = _
  refine Eq.trans (congrArg (V m c main_v8) ?_) (Prefix.y2bar m c d)
  obtain ⟨-, -, -, -, -, -, -, ⟨e0, e1⟩⟩ := idx_whole t
  funext a; apply Fin.ext
  match a with
  | ⟨0, _⟩ => show win0_9.index t (0 : Fin 2) * 1 + 1 * 0 = 0; omega
  | ⟨1, _⟩ => show win0_9.index t (1 : Fin 2) * 64 + 1 * d.val = d.val; omega

/-! ## The body's result at point t is tile t's value -/

/-- A head read through blocks agrees with the head read through the arrays when the five readings agree. -/
theorem headAt_congr {x x' : Fin 256 → EReal} {w w' : Fin 256 → Fin 256 → EReal} {b b' : Fin 256 → EReal}
    {v v' : Fin 256 → EReal} {e e' : EReal} (hx : ∀ k, x k = x' k) (hw : ∀ k j, w k j = w' k j) (hb : ∀ j, b j = b' j)
    (hv : ∀ j, v j = v' j) (he : e = e') : headAt x w b v e = headAt x' w' b' v' e' := by
  obtain rfl : x = x' := funext hx
  obtain rfl : w = w' := funext fun k => funext (hw k)
  obtain rfl : b = b' := funext hb
  obtain rfl : v = v' := funext hv
  rw [he]

theorem block_mu (t : Fin cfg0.N) (r : Fin 2048) (d : Fin 64) :
    blockMu (iblk m c 0 t) (iblk m c 2 t) (iblk m c 3 t) (iblk m c 4 t) (iblk m c 5 t) r d = (args m c).mu (row (tileOf t) r) d :=
  headAt_congr (fun k => read_x m c t r k) (fun k j => (read_w1 m c t k (lo j)).trans (Prefix.w1_lo m c k j))
    (fun j => (read_b1 m c t (lo j)).trans (Prefix.b1_lo m c j)) (fun j => read_w2m m c t j d) (read_b2m m c t d)

theorem block_lv (t : Fin cfg0.N) (r : Fin 2048) (d : Fin 64) :
    blockLv (iblk m c 0 t) (iblk m c 2 t) (iblk m c 3 t) (iblk m c 6 t) (iblk m c 7 t) r d = (args m c).lv (row (tileOf t) r) d :=
  headAt_congr (fun k => read_x m c t r k) (fun k j => (read_w1 m c t k (hi j)).trans (Prefix.w1_hi m c k j))
    (fun j => (read_b1 m c t (hi j)).trans (Prefix.b1_hi m c j)) (fun j => read_w2l m c t j d) (read_b2l m c t d)

theorem block_eq (t : Fin cfg0.N) :
    blockOut (iblk m c 0 t) (iblk m c 1 t) (iblk m c 2 t) (iblk m c 3 t) (iblk m c 4 t) (iblk m c 5 t) (iblk m c 6 t)
      (iblk m c 7 t) (iblk m c 8 t) (iblk m c 9 t) = tile (args m c) (tileOf t) := by
  unfold blockOut tile Args.pos Args.neg
  refine congrArg (· * cScale) (Finset.sum_congr rfl fun r _ => Finset.sum_congr rfl fun d _ => ?_)
  rw [block_mu m c t r d, block_lv m c t r d, read_y m c t r d, read_ybar m c t d, read_y2bar m c t d]

/-! ## From the blocks to the array -/

/-- What point t writes back is block t of the array of partial results. -/
theorem flushed_eq (t : Fin cfg0.N) :
    (dats m 0 c).flushed 10 t = ((cfg0.win 10).blk t).view.read (Elt Ideal) (partials (args m c)) := by
  show (cfg0.win 10).cut (grid0.coords t) ((dats m 0 c).after 10 t) = _
  rw [after0_10]
  funext j
  refine (Cert.Body.out_apply _ _ _ _ _ _ _ _ _ _ j).trans ?_
  refine (block_eq m c t).trans ?_
  show tile (args m c) (tileOf t) = tile (args m c) ((((cfg0.win 10).blk t).view.emb j) 0)
  refine congrArg (tile (args m c)) (Fin.ext ?_)
  obtain ⟨e0, -⟩ := idx_facts t
  show t.val = win0_10.index t (0 : Fin 3) * 1 + 1 * (j 0).val
  have hj : (j 0).val < 1 := (j 0).isLt
  omega

/-- An index of the array is in point t's block iff each coordinate is in the block's range on its axis. -/
theorem mem_blk (t : Fin cfg0.N) (i : S4x8x128.Idx) :
    i ∈ ((cfg0.win 10).blk t).view.set ↔ ∀ a : Fin 3, win0_10.index t a * S1x8x128.size a ≤ (i a).val ∧ (i a).val < win0_10.index t a * S1x8x128.size a + S1x8x128.size a := by
  show i ∈ ((View.whole main_v17).slice (win0_10.rect t)).set ↔ _
  rw [View.set_slice_whole, Rect.mem_set_unit]
  exact Iff.rfl

/-- The four blocks tile the array: entry (i, a, b) is in the block of point i. -/
theorem cover (i : S4x8x128.Idx) : ∃ t : Fin cfg0.N, (cfg0.win 10).flush t = true ∧ i ∈ ((cfg0.win 10).blk t).view.set := by
  have hi0 : (i 0).val < 4 := (i 0).isLt
  have hi1 : (i 1).val < 8 := (i 1).isLt
  have hi2 : (i 2).val < 128 := (i 2).isLt
  have hN : (i 0).val < grid0.N := by have := N_0; omega
  obtain ⟨t, ht⟩ : ∃ t : Fin cfg0.N, t.val = (i 0).val := ⟨⟨(i 0).val, hN⟩, rfl⟩
  refine ⟨t, flush0_10 t, ?_⟩
  rw [mem_blk]
  obtain ⟨e0, e1, e2, -⟩ := idx_facts t
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 8 ≤ (i 1).val ∧ (i 1).val < win0_10.index t (1 : Fin 3) * 8 + 8; omega
  | ⟨2, _⟩ => show win0_10.index t (2 : Fin 3) * 128 ≤ (i 2).val ∧ (i 2).val < win0_10.index t (2 : Fin 3) * 128 + 128; omega

/-- The output array after the region: the array of partial results. -/
theorem final (c : Dev nD) : (dats m 0 c).arrAt 10 cfg0.N = partials (args m c) :=
  (dats m 0 c).arrAt_eq_of_cover 10 (partials (args m c)) (fun t _ => flushed_eq m c t) (cover)

end Cert.Blocks

end
-- ==== Proof.Tail.lean ====
/-
  The kernel program's result, read off its run.

  After the region the host adds all 4 x 8 x 128 entries of the array of partial results, from the zero word, and
  divides the sum by 8192. The run of the whole program ends with the region's output array at what the four
  grid points wrote back and with every later buffer at the host operations' value of it; so once the output
  array is known to be the array of partial results, the program's result is the kernel's result of Spec.lean,
  and the argument arrays are as they were.
-/
import proofs.«102251_j12360915878462_2_alg».proof.Proof.Gen.KernelIdeal.Frame
import proofs.«102251_j12360915878462_2_alg».proof.Proof.Spec
import Idealize.ShloMosaic.Lib.Pipeline.Value
import Idealize.ShloMosaic.Lib.StableHlo.Run
import Idealize.ShloMosaic.PureOps.Ideal.Laws

noncomputable section

open scoped BigOperators

namespace Cert.Tail

open Idealize.ShloMosaic Idealize.ShloMosaic.TcCoe Idealize.SL.Sem Idealize.ShloMosaic.StableHlo Idealize.ShloMosaic.ValueIdx
open Cert.KernelIdeal Cert.KernelIdeal.Gen Cert.Spec

variable (m : (ℓ : Loc nD τ sig) → Buf (Elt Ideal) ℓ)

/-- The program's result as the host operations' term of the region's output array P. -/
theorem tail_term (c : Dev nD) (P : S4x8x128.Idx → EReal) (hP : (dats m 0 c).arrAt 10 cfg0.N = P) :
    (Pipeline.afterTail₀ cfgs (dats m) 0 (V0 m) [hostOps1] c main_v19 : S_.Idx → EReal)
      = Host.divf (F := Ideal) (Host.reduceAdd P (constant (F := Ideal) S_ .f32 0x00000000#32) reducesTo_S4x8x128_S_d0_1_2 h_S_) (constant (F := Ideal) S_ .f32 0x46000000#32) := by
  unfold Pipeline.afterTail₀
  show StableHlo.after hostOps1 _ (Proc.devRef .tc main_v19) = _
  after_results
  have h17 : Pipeline.withArrays (cfgs 0).spec c (V0 m c) (fun w => (dats m 0 c).arrAt w (cfgs 0).N) (Proc.devRef .tc main_v17) = P :=
    (Pipeline.withArrays_arr spec0 launch0.win.arr_inj c _ _ 10).trans hP
  rw [h17]

/-- With the output array the array of partial results, the program's result is all of them added, over 8192. -/
theorem result (A : Dev nD → Args) (hfinal : ∀ c, (dats m 0 c).arrAt 10 cfg0.N = partials (A c)) (c : Dev nD) :
    (Pipeline.afterTail₀ cfgs (dats m) 0 (V0 m) [hostOps1] c main_v19 : S_.Idx → EReal) = fun _ => kerResult (A c) := by
  rw [tail_term m c _ (hfinal c)]
  funext i
  show Ideal.div (Host.reduceAdd (F := Ideal) (partials (A c)) (constant (F := Ideal) S_ .f32 0x00000000#32) reducesTo_S4x8x128_S_d0_1_2 h_S_ i) (Ideal.ofBits .f32 0x46000000#32) = _
  simp only [Host.reduceAdd, Ideal.hostReduceAdd_def]
  rw [Ideal.hostReduceAdd_total reducesTo_S4x8x128_S_d0_1_2 (fun b => b.elim0)]
  show Ideal.div (Ideal.ofBits .f32 0x00000000#32 + _) _ = _
  rw [Ideal.ofBits_zero_f32, zero_add]
  rfl

/-- The run of the kernel program: it ends with its result at the kernel's result and its arguments unchanged. -/
theorem run (A : Dev nD → Args) (hfinal : ∀ c, (dats m 0 c).arrAt 10 cfg0.N = partials (A c)) (ρ : Dev nD → PrngReg) :
    θ_run defs (onTc (τ := τ) (main (F := Ideal))) ⟨m, fun _ => 0, ρ⟩ (fun r => ∀ c : Dev nD,
      r.2.mem ((c.tc : Thread nD τ).loc main_v19) = (fun _ => kerResult (A c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v19 (Pipeline.mem_restRefs_of main_v19 (by decide) (by decide))).trans (result m A hfinal c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.Tail

end
-- ==== Proof.Finite.lean ====
/-
  From the printed precondition to "every argument entry is a real number".

  The precondition computes, for each of the ten argument arrays, whether |x| < +inf holds at every entry
  (a comparison of |x| with the float word of +inf, then an "and" over all axes starting from true), and
  "and"s the ten answers. If the answer is true then each of the ten is true, so each comparison is true at
  every entry. On the extended reals |x| = max(x, -x), which is +inf at both infinities, and +inf < +inf is
  false; so an entry with |x| < +inf is neither infinity, that is, it is a real number.
-/
import proofs.«102251_j12360915878462_2_alg».proof.Pre_finite_inputs
import proofs.«102251_j12360915878462_2_alg».proof.Proof.Spec
import Idealize.ShloMosaic.Lib.ReduceAll

noncomputable section

namespace Cert.Finite

open Idealize.ShloMosaic Idealize.ShloMosaic.ValueIdx Cert.Spec Cert.Pre_finite_inputs

/-- The scalar shape has exactly one index (there is no axis to give a coordinate for). -/
instance : Subsingleton S_.Idx := ⟨fun a b => funext fun d => d.elim0⟩

/-- The word 0x7F800000 (exponent all ones, fraction zero, sign plus) is +inf. -/
theorem ofBits_inf : Ideal.ofBits .f32 0x7F800000#32 = ⊤ := by simp [Ideal.ofBits, Ideal.ieee]

/-- An extended real with |a| = max(a, -a) < +inf is a real: at a = -inf and at a = +inf the maximum is +inf. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- One array: if the "and" over all axes of the entrywise test |x| < +inf is true, every entry is a real. -/
theorem isReal_of_all {S : Shape} {axes : List (Fin S.rank)} (x : FVec Ideal S .f32) (hb : S_.BroadcastsInDim S ![])
    (hr : S.ReducesTo axes S_) (hu : 0 < S_.numel)
    (e : Host.reduce IntOp.andi (cmpf .olt (Host.absf x) (broadcastInDim S ![] hb (constant S_ .f32 0x7F800000#32)))
      (constantI S_ 1 1#1) hr hu ix0 = 1#1) : IsReal x := fun i =>
  real_of_abs_lt (x i) (Host.reduce_andi_all _ _ hr hu ix0 e i)

/-- An "and" of two one-bit scalars that is true has both true. -/
theorem and_split (a b : IVec S_ 1) (h : andi a b ix0 = 1#1) : a ix0 = 1#1 ∧ b ix0 = 1#1 :=
  IntOp.andi_eq_one.1 h

variable [Facts]

/-- If the precondition holds, every entry of every argument is a real. -/
theorem real_of_pre (x0 : Mat 8192 256) (x1 : Mat 8192 64) (x2 : Mat 256 256) (x3 : Vct 256) (x4 : Mat 256 64) (x5 : Vct 64)
    (x6 : Mat 256 256) (x7 : Vct 256) (x8 : Mat 256 64) (x9 : Vct 64)
    (h : Cert.Pre_finite_inputs.fn (F := Ideal) x0 x1 x2 x3 x4 x5 x6 x7 x8 x9 = fun _ => 1#1) :
    (⟨x0, x1, x2, x3, x4, x5, x6, x7, x8, x9⟩ : Args).Real := by
  have h0 := congrFun h ix0
  dsimp only [fn, fn_part1, fn_part2] at h0
  obtain ⟨h0, e9⟩ := and_split _ _ h0
  obtain ⟨h0, e8⟩ := and_split _ _ h0
  obtain ⟨h0, e7⟩ := and_split _ _ h0
  obtain ⟨h0, e6⟩ := and_split _ _ h0
  obtain ⟨h0, e5⟩ := and_split _ _ h0
  obtain ⟨h0, e4⟩ := and_split _ _ h0
  obtain ⟨h0, e3⟩ := and_split _ _ h0
  obtain ⟨h0, e2⟩ := and_split _ _ h0
  obtain ⟨e0, e1⟩ := and_split _ _ h0
  exact ⟨isReal_of_all x0 _ _ _ e0, isReal_of_all x1 _ _ _ e1, isReal_of_all x2 _ _ _ e2, isReal_of_all x3 _ _ _ e3,
    isReal_of_all x4 _ _ _ e4, isReal_of_all x5 _ _ _ e5, isReal_of_all x6 _ _ _ e6, isReal_of_all x7 _ _ _ e7,
    isReal_of_all x8 _ _ _ e8, isReal_of_all x9 _ _ _ e9⟩

end Cert.Finite

end
-- ==== Proof.Reals.lean ====
/-
  The two results of Spec.lean agree when every argument entry is a real number.

  On the extended reals (the reals with +inf and -inf) a finite sum of differences is not in general the
  difference of the sums: (+inf) - (+inf) is -inf here, so one infinite term changes the law. Every step below
  therefore first shows that the quantity in hand is a REAL (a coerced real number), and the identity itself is
  proved in the field of reals, where it is plain algebra:

    sum over the 4 x 8 x 128 block entries of T(i) / 1024  =  sum_i T(i)          (8 * 128 / 1024 = 1)
    sum_i sum_{r < 2048} g(2048 i + r)                     =  sum_{n < 8192} g(n)  (the tiles partition the batch)
    sum_d (p - q)                                          =  sum_d p - sum_d q.
-/
import proofs.«102251_j12360915878462_2_alg».proof.Proof.Spec
import Idealize.ShloMosaic.PureOps.Ideal.Laws
import Mathlib.Data.EReal.Operations
import Mathlib.Algebra.BigOperators.Fin

noncomputable section

open scoped BigOperators

namespace Cert.Reals

open Idealize.ShloMosaic Idealize.ShloMosaic.ValueIdx Cert.Spec

/-! ## Real numbers among the extended reals -/

/-- An extended real that is (the image of) a real number. -/
def IsR (x : EReal) : Prop := ∃ r : ℝ, x = (r : EReal)

theorem isR_coe (r : ℝ) : IsR (r : EReal) := ⟨r, rfl⟩

theorem isR_zero : IsR (0 : EReal) := ⟨0, rfl⟩

/-- The sum of two reals is a real. -/
theorem IsR.add {a b : EReal} (ha : IsR a) (hb : IsR b) : IsR (a + b) := by
  obtain ⟨r, rfl⟩ := ha; obtain ⟨s, rfl⟩ := hb; exact ⟨r + s, (EReal.coe_add r s).symm⟩

/-- The negative of a real is a real. -/
theorem IsR.neg {a : EReal} (ha : IsR a) : IsR (-a) := by
  obtain ⟨r, rfl⟩ := ha; exact ⟨-r, (EReal.coe_neg r).symm⟩

/-- The difference of two reals is a real. -/
theorem IsR.sub {a b : EReal} (ha : IsR a) (hb : IsR b) : IsR (a - b) := by
  obtain ⟨r, rfl⟩ := ha; obtain ⟨s, rfl⟩ := hb; exact ⟨r - s, (EReal.coe_sub r s).symm⟩

/-- The product of two reals is a real. -/
theorem IsR.mul {a b : EReal} (ha : IsR a) (hb : IsR b) : IsR (a * b) := by
  obtain ⟨r, rfl⟩ := ha; obtain ⟨s, rfl⟩ := hb; exact ⟨r * s, (EReal.coe_mul r s).symm⟩

/-- The larger of two reals is a real. -/
theorem IsR.max {a b : EReal} (ha : IsR a) (hb : IsR b) : IsR (max a b) := by
  rcases max_choice a b with h | h <;> rw [h] <;> assumption

/-- The coercion of a finite sum of reals is the sum of the coercions (induction on the index set). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isR_sum {ι : Type*} (s : Finset ι) (f : ι → EReal) (h : ∀ i ∈ s, IsR (f i)) : IsR (∑ i ∈ s, f i) := by
  classical
  induction s using Finset.induction_on with
  | empty => simpa using isR_zero
  | insert a s ha ih =>
    rw [Finset.sum_insert ha]
    exact (h a (Finset.mem_insert_self a s)).add (ih fun i hi => h i (Finset.mem_insert_of_mem hi))

/-- tanh of a real is a real. -/
theorem IsR.tanh {a : EReal} (ha : IsR a) : IsR (Ideal.tanh a) := by
  obtain ⟨r, rfl⟩ := ha; exact ⟨Real.tanh r, Ideal.tanh_coe r⟩

/-- exp of a real is a real. -/
theorem IsR.exp {a : EReal} (ha : IsR a) : IsR (Ideal.exp a) := by
  obtain ⟨r, rfl⟩ := ha; exact ⟨Real.exp r, Ideal.exp_coe r⟩

/-! ## The four float words -/

/-- The word 0x46000000 is 2^13 = 8192. -/
theorem cN_eq : cN = ((8192 : ℝ) : EReal) := by
  simp [Ideal.ofBits, Ideal.ieee, -EReal.coe_mul]; norm_num

/-- The word 0x3F000000 is 1/2. -/
theorem cHalf_eq : cHalf = ((1 / 2 : ℝ) : EReal) := by
  simp [Ideal.ofBits, Ideal.ieee, -EReal.coe_mul]; norm_num

/-- The word 0x40000000 is 2. -/
theorem cTwo_eq : cTwo = ((2 : ℝ) : EReal) := by
  simp [Ideal.ofBits, Ideal.ieee, -EReal.coe_mul]; norm_num

/-- The word 0x3A800000 is 2^-10 = 1/1024. -/
theorem cScale_eq : cScale = ((1 / 1024 : ℝ) : EReal) := by
  simp [Ideal.ofBits, Ideal.ieee, -EReal.coe_mul]; norm_num

/-- A real divided by 8192 is a real (division by a nonzero real is multiplication by its reciprocal). -/
theorem IsR.div_cN {a : EReal} (ha : IsR a) : IsR (Ideal.div a cN) := by
  rw [cN_eq, Ideal.div_coe (by norm_num : (8192 : ℝ) ≠ 0)]
  exact ha.mul (isR_coe _)

theorem isR_cHalf : IsR cHalf := cHalf_eq ▸ isR_coe _
theorem isR_cTwo : IsR cTwo := cTwo_eq ▸ isR_coe _
theorem isR_cScale : IsR cScale := cScale_eq ▸ isR_coe _

/-! ## The functions of the statement on real arguments -/

/-- A sum over a whole finite index type of reals is a real. -/
theorem isR_sum_univ {ι : Type*} [Fintype ι] (f : ι → EReal) (h : ∀ i, IsR (f i)) : IsR (∑ i, f i) :=
  isR_sum Finset.univ f fun i _ => h i

/-- A hidden unit max(sum_k x(k) w(k) + b, 0) of real inputs is a real. -/
theorem isR_hiddenAt {xrow wcol : Fin 256 → EReal} {b : EReal} (hx : ∀ k, IsR (xrow k)) (hw : ∀ k, IsR (wcol k))
    (hb : IsR b) : IsR (hiddenAt xrow wcol b) :=
  ((isR_sum_univ _ fun k => (hx k).mul (hw k)).add hb).max isR_zero

/-- A head output sum_j hidden(j) w2(j) + b2 of real inputs is a real. -/
theorem isR_headAt {xrow : Fin 256 → EReal} {w1 : Fin 256 → Fin 256 → EReal} {b1 w2col : Fin 256 → EReal} {b2 : EReal}
    (hx : ∀ k, IsR (xrow k)) (hw1 : ∀ k j, IsR (w1 k j)) (hb1 : ∀ j, IsR (b1 j)) (hw2 : ∀ j, IsR (w2col j))
    (hb2 : IsR b2) : IsR (headAt xrow w1 b1 w2col b2) :=
  (isR_sum_univ _ fun j => (isR_hiddenAt hx (fun k => hw1 k j) (hb1 j)).mul (hw2 j)).add hb2

/-- The inverse variance exp(-tanh(lv)) of a real lv is a real. -/
theorem isR_invVarAt {lv : EReal} (h : IsR lv) : IsR (invVarAt lv) := h.tanh.neg.exp

/-- -(mu - y)^2 e / 2 of reals is a real. -/
theorem isR_posTerm {mu e yv : EReal} (hm : IsR mu) (he : IsR e) (hy : IsR yv) : IsR (posTerm mu e yv) :=
  ((((hm.sub hy).mul (hm.sub hy)).neg).mul he).mul isR_cHalf

/-- -(mu^2 - 2 mu ybar + y2bar) e / 2 of reals is a real. -/
theorem isR_negTerm {mu e yb y2b : EReal} (hm : IsR mu) (he : IsR e) (hyb : IsR yb) (hy2 : IsR y2b) :
    IsR (negTerm mu e yb y2b) :=
  ((((hm.mul hm).sub ((isR_cTwo.mul hm).mul hyb)).add hy2).neg.mul he).mul isR_cHalf

section UnderReal
variable {A : Args} (h : A.Real)
include h

theorem isR_mu (n : Fin 8192) (d : Fin 64) : IsR (A.mu n d) :=
  isR_headAt (fun _ => h.x _) (fun _ _ => h.mw1 _) (fun _ => h.mb1 _) (fun _ => h.mw2 _) (h.mb2 _)

theorem isR_lv (n : Fin 8192) (d : Fin 64) : IsR (A.lv n d) :=
  isR_headAt (fun _ => h.x _) (fun _ _ => h.lw1 _) (fun _ => h.lb1 _) (fun _ => h.lw2 _) (h.lb2 _)

theorem isR_yMean (d : Fin 64) : IsR (yMean A.y d) := (isR_sum_univ _ fun _ => h.y _).div_cN

theorem isR_ySqMean (d : Fin 64) : IsR (ySqMean A.y d) :=
  (isR_sum_univ _ fun n => IsR.mul (h.y (ix2 n d)) (h.y (ix2 n d))).div_cN

/-- Every pos(n,d) is a real. -/
theorem isR_pos (n : Fin 8192) (d : Fin 64) : IsR (A.pos n d) :=
  isR_posTerm (isR_mu h n d) (isR_invVarAt (isR_lv h n d)) (h.y _)

/-- Every neg(n,d) is a real. -/
theorem isR_neg (n : Fin 8192) (d : Fin 64) : IsR (A.neg n d) :=
  isR_negTerm (isR_mu h n d) (isR_invVarAt (isR_lv h n d)) (isR_yMean h d) (isR_ySqMean h d)

end UnderReal

/-! ## The identity in the field of reals -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- Adding, over the 4 x 8 x 128 block entries, a value that depends on the first coordinate alone and is
    scaled by 1/1024 gives the sum over the first coordinate: each value is counted 8 * 128 = 1024 times. -/
theorem sum_blocks (T : Fin 4 → ℝ) :
    ∑ j : (⟨3, ![4, 8, 128]⟩ : Shape).Idx, T (j 0) * (1 / 1024) = ∑ i : Fin 4, T i := by
  rw [← Equiv.sum_comp (idxEquiv3 (n0 := 4) (n1 := 8) (n2 := 128)).symm
    (fun j : (⟨3, ![4, 8, 128]⟩ : Shape).Idx => T (j 0) * (1 / 1024)), Fintype.sum_prod_type]
  refine Finset.sum_congr rfl fun i _ => ?_
  rw [Fintype.sum_prod_type]
  show ∑ _b : Fin 8, ∑ _c : Fin 128, T i * (1 / 1024) = T i
  simp only [Finset.sum_const, Finset.card_univ, Fintype.card_fin, nsmul_eq_mul]
  push_cast
  ring

/-- The four tiles of 2048 rows partition the batch: (i, r) -> 2048 i + r is a bijection onto the 8192 rows,
    with inverse n -> (n div 2048, n mod 2048). -/
def rowEquiv : Fin 4 × Fin 2048 ≃ Fin 8192 where
  toFun p := row p.1 p.2
  invFun n := (⟨n.val / 2048, by have := n.isLt; omega⟩, ⟨n.val % 2048, by omega⟩)
  left_inv p := by
    rcases p with ⟨i, r⟩
    have hi := i.isLt
    have hr := r.isLt
    refine Prod.ext (Fin.ext ?_) (Fin.ext ?_)
    · show (i.val * 2048 + r.val) / 2048 = i.val
      omega
    · show (i.val * 2048 + r.val) % 2048 = r.val
      omega
  right_inv n := by
    refine Fin.ext ?_
    show n.val / 2048 * 2048 + n.val % 2048 = n.val
    omega

/-- So a sum over the tiles of the sums over each tile's rows is the sum over the batch. -/
theorem sum_tiles (g : Fin 8192 → ℝ) : ∑ i : Fin 4, ∑ r : Fin 2048, g (row i r) = ∑ n : Fin 8192, g n := by
  rw [← Equiv.sum_comp rowEquiv g, Fintype.sum_prod_type]
  rfl

/-- The real identity: with p, q real-valued, the kernel's sum of scaled tile sums equals the reference's sum of
    per-row differences. -/
theorem core (p q : Fin 8192 → Fin 64 → ℝ) :
    ∑ j : (⟨3, ![4, 8, 128]⟩ : Shape).Idx,
        (∑ r : Fin 2048, ∑ d : Fin 64, (p (row (j 0) r) d - q (row (j 0) r) d)) * (1 / 1024)
      = ∑ n : Fin 8192, ((∑ d : Fin 64, p n d) - ∑ d : Fin 64, q n d) := by
  refine (sum_blocks fun i => ∑ r : Fin 2048, ∑ d : Fin 64, (p (row i r) d - q (row i r) d)).trans ?_
  refine (sum_tiles fun n => ∑ d : Fin 64, (p n d - q n d)).trans ?_
  exact Finset.sum_congr rfl fun n _ => Finset.sum_sub_distrib _ _

/-! ## The two results agree -/

/-- When every argument entry is a real, the kernel's result is the reference's. Both numerators are first
    written as coerced real sums (every pos and neg term is a real), which reduces the claim to \`core\`. -/
theorem ker_eq_ref (A : Args) (h : A.Real) : kerResult A = refResult A := by
  have hpos : ∀ n d, ∃ r : ℝ, A.pos n d = (r : EReal) := isR_pos h
  have hneg : ∀ n d, ∃ r : ℝ, A.neg n d = (r : EReal) := isR_neg h
  choose p hp using hpos
  choose q hq using hneg
  have hK : ∑ j : (⟨3, ![4, 8, 128]⟩ : Shape).Idx, partials A j
      = ((∑ j : (⟨3, ![4, 8, 128]⟩ : Shape).Idx,
          (∑ r : Fin 2048, ∑ d : Fin 64, (p (row (j 0) r) d - q (row (j 0) r) d)) * (1 / 1024) : ℝ) : EReal) := by
    rw [coe_sum]
    refine Finset.sum_congr rfl fun j _ => ?_
    show (∑ r : Fin 2048, ∑ d : Fin 64, (A.pos (row (j 0) r) d - A.neg (row (j 0) r) d)) * cScale = _
    rw [cScale_eq, EReal.coe_mul, coe_sum]
    refine congrArg (· * ((1 / 1024 : ℝ) : EReal)) ?_
    refine Finset.sum_congr rfl fun r _ => ?_
    rw [coe_sum]
    refine Finset.sum_congr rfl fun d _ => ?_
    rw [hp, hq, EReal.coe_sub]
  have hR : ∑ n : Fin 8192, ((∑ d : Fin 64, A.pos n d) - ∑ d : Fin 64, A.neg n d)
      = ((∑ n : Fin 8192, ((∑ d : Fin 64, p n d) - ∑ d : Fin 64, q n d) : ℝ) : EReal) := by
    rw [coe_sum]
    refine Finset.sum_congr rfl fun n _ => ?_
    rw [EReal.coe_sub, coe_sum, coe_sum]
    simp only [hp, hq]
  rw [kerResult, refResult, hK, hR, core p q]

end Cert.Reals

end
-- ==== Proof.lean ====
/-
  The certificate: a Pallas kernel that estimates a mutual-information loss from two small networks' outputs,
  against its jnp reference, on the extended reals.

  Both programs compute, for a batch of 8192 rows, a mean head mu and an inverse variance e = exp(-tanh(lv)) from
  two two-layer networks with a clipped hidden layer, the terms pos = -(mu - y)^2 e / 2 and
  neg = -(mu^2 - 2 mu ybar + y2bar) e / 2, and return the mean over the rows of sum_d pos - sum_d neg. The
  kernel lays the two first layers side by side and makes one product of them, works on four tiles of 2048
  rows, adds pos - neg over a whole tile, writes the tile's sum scaled by 2^-10 to each of 8 x 128 entries, and
  the host adds all entries and divides by 8192. A change of float format is the identity here, a product into
  a zero accumulator is a plain sum of products, 0 - t is -t, and 1024 copies of s / 1024 add up to s. The one
  step that is not true of all extended reals is sum_d (pos - neg) = sum_d pos - sum_d neg, which fails when an
  infinity meets its opposite: it holds because the precondition makes every input, hence every intermediate
  value, a real number.

  The modules: Spec (the functions), RefValue (the reference's term is Spec.refResult), Body (the kernel body's
  output block is Spec.blockOut of its input blocks), Prefix (the arrays the host prepares, at an index), Blocks
  (the region's output array is Spec.partials), Tail (the kernel program's run ends at Spec.kerResult), Finite
  (the precondition makes every argument entry a real), Reals (kerResult = refResult on real arguments).
  The three frames are the generated frame runs; the ideal pass rewrote nothing, so the idealized kernel is
  the kernel's own text and that conjunct is trivial.
-/
import proofs.«102251_j12360915878462_2_alg».proof.Defs
import proofs.«102251_j12360915878462_2_alg».proof.Proof.Gen.Kernel
import proofs.«102251_j12360915878462_2_alg».proof.Proof.Gen.Kernel.Skeleton
import proofs.«102251_j12360915878462_2_alg».proof.Proof.Gen.Kernel.Launch
import proofs.«102251_j12360915878462_2_alg».proof.Proof.Gen.Kernel.Points
import proofs.«102251_j12360915878462_2_alg».proof.Proof.Gen.Kernel.Frame
import proofs.«102251_j12360915878462_2_alg».proof.Proof.Gen.KernelIdeal
import proofs.«102251_j12360915878462_2_alg».proof.Proof.Gen.KernelIdeal.Skeleton
import proofs.«102251_j12360915878462_2_alg».proof.Proof.Gen.KernelIdeal.Launch
import proofs.«102251_j12360915878462_2_alg».proof.Proof.Gen.KernelIdeal.Points
import proofs.«102251_j12360915878462_2_alg».proof.Proof.Gen.KernelIdeal.Frame
import proofs.«102251_j12360915878462_2_alg».proof.Proof.Gen.ReferenceIdeal
import proofs.«102251_j12360915878462_2_alg».proof.Proof.Gen.ReferenceIdeal.Run
import proofs.«102251_j12360915878462_2_alg».proof.Proof.Gen.ReferenceIdeal.Read
import proofs.«102251_j12360915878462_2_alg».proof.Proof.Gen.Pre_finite_inputs
import proofs.«102251_j12360915878462_2_alg».proof.Proof.Spec
import proofs.«102251_j12360915878462_2_alg».proof.Proof.RefValue
import proofs.«102251_j12360915878462_2_alg».proof.Proof.Blocks
import proofs.«102251_j12360915878462_2_alg».proof.Proof.Tail
import proofs.«102251_j12360915878462_2_alg».proof.Proof.Finite
import proofs.«102251_j12360915878462_2_alg».proof.Proof.Reals
import Idealize.ShloMosaic.Adequacy
import Idealize.ShloMosaic.Init

noncomputable section

namespace Cert.Proof

open Idealize.ShloMosaic Idealize.SL.Sem Cert.Kernel

/-- The kernel program as printed runs, and leaves its arguments as they were. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the ten arguments, all of them real by the precondition, the kernel program ends
    at Spec.kerResult and the reference at Spec.refResult of the same arguments: one number. -/
theorem algebraic : Cert.algebraic_KernelIdeal_ReferenceIdeal := by
  intro m ρ m' ρ' hpre hagree
  refine ⟨fun c => (fun _ => Cert.Spec.kerResult (Cert.Blocks.args m c)),
    Cert.Tail.run m (Cert.Blocks.args m) (Cert.Blocks.final m) ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v52_eq, a0, a1, a2, a3, a4, a5, a6, a7, a8, a9]
  refine (Cert.RefValue.ref_eq _ _ _ _ _ _ _ _ _ _).trans ?_
  funext _
  exact (Cert.Reals.ker_eq_ref (Cert.Blocks.args m c) (Cert.Finite.real_of_pre _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
